-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S128x128 .f32) (main_arg3 : FVec F S128x128 .f32) (main_arg4 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S2000x128 : Shape := ⟨2, ![2000, 128]⟩

abbrev nBuf : Space → Nat
  | .hbm => 62
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128x128, .f32⟩
  | .hbm, ⟨4, _⟩ => ⟨S2x800000, .i32⟩
  | .hbm, ⟨5, _⟩ => ⟨S100000, .i32⟩
  | .hbm, ⟨6, _⟩ => ⟨S1x800000, .i32⟩
  | .hbm, ⟨7, _⟩ => ⟨S800000, .i32⟩
  | .hbm, ⟨8, _⟩ => ⟨S900000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S_, .f32⟩
  | .hbm, ⟨13, _⟩ => ⟨S900000, .f32⟩
  | .hbm, ⟨14, _⟩ => ⟨S_, .f32⟩
  | .hbm, ⟨15, _⟩ => ⟨S100000, .f32⟩
  | .hbm, ⟨16, _⟩ => ⟨S900000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S900000, .i32⟩
  | .hbm, ⟨27, _⟩ => ⟨S900000, .i1⟩
  | .hbm, ⟨28, _⟩ => ⟨S_, .i32⟩
  | .hbm, ⟨29, _⟩ => ⟨S900000, .i32⟩
  | .hbm, ⟨30, _⟩ => ⟨S900000, .i32⟩
  | .hbm, ⟨31, _⟩ => ⟨S900000, .i32⟩
  | .hbm, ⟨32, _⟩ => ⟨S900000x1, .i32⟩
  | .hbm, ⟨33, _⟩ => ⟨S900000, .f32⟩
  | .hbm, ⟨34, _⟩ => ⟨S900000, .f32⟩
  | .hbm, ⟨35, _⟩ => ⟨S_, .i32⟩
  | .hbm, ⟨36, _⟩ => ⟨S900000, .i32⟩
  | .hbm, ⟨37, _⟩ => ⟨S900000, .i1⟩
  | .hbm, ⟨38, _⟩ => ⟨S_, .i32⟩
  | .hbm, ⟨39, _⟩ => ⟨S900000, .i32⟩
  | .hbm, ⟨40, _⟩ => ⟨S900000, .i32⟩
  | .hbm, ⟨41, _⟩ => ⟨S900000, .i32⟩
  | .hbm, ⟨42, _⟩ => ⟨S900000x1, .i32⟩
  | .hbm, ⟨43, _⟩ => ⟨S900000, .f32⟩
  | .hbm, ⟨44, _⟩ => ⟨S900000, .f32⟩
  | .hbm, ⟨45, _⟩ => ⟨S900000x1, .f32⟩
  | .hbm, ⟨46, _⟩ => ⟨S_, .i32⟩
  | .hbm, ⟨47, _⟩ => ⟨S900000, .i32⟩
  | .hbm, ⟨48, _⟩ => ⟨S900000, .i1⟩
  | .hbm, ⟨49, _⟩ => ⟨S_, .i32⟩
  | .hbm, ⟨50, _⟩ => ⟨S900000, .i32⟩
  | .hbm, ⟨51, _⟩ => ⟨S900000, .i32⟩
  | .hbm, ⟨52, _⟩ => ⟨S900000, .i32⟩
  | .hbm, ⟨53, _⟩ => ⟨S900000x1, .i32⟩
  | .hbm, ⟨54, _⟩ => ⟨S900000x128, .f32⟩
  | .hbm, ⟨55, _⟩ => ⟨S900000x128, .f32⟩
  | .hbm, ⟨56, _⟩ => ⟨S900000x128, .f32⟩
  | .hbm, ⟨57, _⟩ => ⟨S_, .f32⟩
  | .hbm, ⟨58, _⟩ => ⟨S100000x128, .f32⟩
  | .hbm, ⟨59, _⟩ => ⟨S900000x1, .i32⟩
  | .hbm, ⟨60, _⟩ => ⟨S100000x128, .f32⟩
  | .hbm, ⟨61, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v44) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128x128, .f32⟩
  | .hbm, ⟨4, _⟩ => ⟨S2x800000, .i32⟩
  | .hbm, ⟨5, _⟩ => ⟨S100000, .i32⟩
  | .hbm, ⟨6, _⟩ => ⟨S1x800000, .i32⟩
  | .hbm, ⟨7, _⟩ => ⟨S800000, .i32⟩
  | .hbm, ⟨8, _⟩ => ⟨S900000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S_, .f32⟩
  | .hbm, ⟨13, _⟩ => ⟨S900000, .f32⟩
  | .hbm, ⟨14, _⟩ => ⟨S_, .f32⟩
  | .hbm, ⟨15, _⟩ => ⟨S100000, .f32⟩
  | .hbm, ⟨16, _⟩ => ⟨S900000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S900000, .i32⟩
  | .hbm, ⟨27, _⟩ => ⟨S900000, .i1⟩
  | .hbm, ⟨28, _⟩ => ⟨S_, .i32⟩
  | .hbm, ⟨29, _⟩ => ⟨S900000, .i32⟩
  | .hbm, ⟨30, _⟩ => ⟨S900000, .i32⟩
  | .hbm, ⟨31, _⟩ => ⟨S900000, .i32⟩
  | .hbm, ⟨32, _⟩ => ⟨S900000x1, .i32⟩
  | .hbm, ⟨33, _⟩ => ⟨S900000, .f32⟩
  | .hbm, ⟨34, _⟩ => ⟨S900000, .f32⟩
  | .hbm, ⟨35, _⟩ => ⟨S_, .i32⟩
  | .hbm, ⟨36, _⟩ => ⟨S900000, .i32⟩
  | .hbm, ⟨37, _⟩ => ⟨S900000, .i1⟩
  | .hbm, ⟨38, _⟩ => ⟨S_, .i32⟩
  | .hbm, ⟨39, _⟩ => ⟨S900000, .i32⟩
  | .hbm, ⟨40, _⟩ => ⟨S900000, .i32⟩
  | .hbm, ⟨41, _⟩ => ⟨S900000, .i32⟩
  | .hbm, ⟨42, _⟩ => ⟨S900000x1, .i32⟩
  | .hbm, ⟨43, _⟩ => ⟨S900000, .f32⟩
  | .hbm, ⟨44, _⟩ => ⟨S900000, .f32⟩
  | .hbm, ⟨45, _⟩ => ⟨S900000x1, .f32⟩
  | .hbm, ⟨46, _⟩ => ⟨S_, .i32⟩
  | .hbm, ⟨47, _⟩ => ⟨S900000, .i32⟩
  | .hbm, ⟨48, _⟩ => ⟨S900000, .i1⟩
  | .hbm, ⟨49, _⟩ => ⟨S_, .i32⟩
  | .hbm, ⟨50, _⟩ => ⟨S900000, .i32⟩
  | .hbm, ⟨51, _⟩ => ⟨S900000, .i32⟩
  | .hbm, ⟨52, _⟩ => ⟨S900000, .i32⟩
  | .hbm, ⟨53, _⟩ => ⟨S900000x1, .i32⟩
  | .hbm, ⟨54, _⟩ => ⟨S900000x128, .f32⟩
  | .hbm, ⟨55, _⟩ => ⟨S900000x128, .f32⟩
  | .hbm, ⟨56, _⟩ => ⟨S900000x128, .f32⟩
  | .hbm, ⟨57, _⟩ => ⟨S_, .f32⟩
  | .hbm, ⟨58, _⟩ => ⟨S100000x128, .f32⟩
  | .hbm, ⟨59, _⟩ => ⟨S900000x1, .i32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call1_cst : Ref sig .tc := ⟨.hbm, 78, rfl⟩
abbrev main_call1_v0 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x128_S100000x128_1_0_0_1_n_n_wf : DotDims.WF S100000x128 S128x128 S100000x128 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowsOfBlocks.lean ====
/-
  The kernel's windows as rows of their arrays, for any float instance.

  The grid has 50 points. At point `t` the three row-tiled windows (the propagated features, the initial features, the result)
  are at rows `2000·t … 2000·t + 1999`, all 128 columns, of their arrays, and the two weight windows are the whole matrices.
  Every row `r` of the result lies in the block of point `r / 2000`, and every point writes its block back: the blocks cover
  the result. None of this depends on what the arrays hold, so it is stated for any float instance and never looks inside
  the host operations that filled them.
-/
import proofs.«110994_j6150393168666_1_alg».proof.Proof.Gen.KernelIdeal.Value
import Idealize.ShloMosaic.Lib.Pipeline.Value
import Idealize.ShloMosaic.Lib.ValueIdx
import Idealize.ShloMosaic.Lib.Tactic

noncomputable section

namespace Cert.KernelIdeal.RowsOfBlocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem noOffset : (![0, 0] : Fin 2 → Nat) = fun _ => 0 := funext fun a => by fin_cases a <;> rfl

/-- The printed index maps, decided over the grid: the three row-tiled windows are at row block `t`, column block 0; the two
    weight windows at block (0, 0). -/
theorem tiles : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every row block of the result is some point's. -/
theorem tile_of : ∀ b : Fin 50, ∃ t : Fin cfg0.N, win0_4.index t (0 : Fin 2) = b.val ∧ win0_4.index t (1 : Fin 2) = 0 :=
  (by decide +kernel : ∀ b : Fin 50, ∃ t : Fin grid0.N, win0_4.index t (0 : Fin 2) = b.val ∧ win0_4.index t (1 : Fin 2) = 0)

theorem point_lt (t : Fin cfg0.N) : t.val < 50 := by
  have h : cfg0.N = 50 := N_0
  have := t.isLt
  omega

/-! ## The input blocks as rows of their arrays -/

/-- The propagated features' block at point `t`: rows `2000·t …` of the array the region finds. -/
theorem rows_h (c : Dev nD) (t : Fin cfg0.N) (p : Fin 2000) (k : Fin 128) (r : Fin 100000) (hr : r.val = t.val * 2000 + p.val) :
    (iblk m c 0 t : Vec F S2000x128 .f32) (ix2 p k) = (V m c main_v44 : Vec F S100000x128 .f32) (ix2 r k) := by
  obtain ⟨e0, e1, -⟩ := tiles t
  unfold iblk
  rw [View.read_apply]
  refine congrArg (V m c main_v44 : Vec F S100000x128 .f32) ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The initial features' block at point `t`: the same rows of the second argument. -/
theorem rows_x0 (c : Dev nD) (t : Fin cfg0.N) (p : Fin 2000) (k : Fin 128) (r : Fin 100000) (hr : r.val = t.val * 2000 + p.val) :
    (iblk m c 1 t : Vec F S2000x128 .f32) (ix2 p k) = (V m c main_arg1 : Vec F S100000x128 .f32) (ix2 r k) := by
  obtain ⟨-, -, e0, e1, -⟩ := tiles t
  unfold iblk
  rw [View.read_apply]
  refine congrArg (V m c main_arg1 : Vec F S100000x128 .f32) ?_
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The first weight matrix's block at any point is the matrix. -/
theorem whole_w1 (c : Dev nD) (t : Fin cfg0.N) (k q : Fin 128) :
    (iblk m c 2 t : Vec F S128x128 .f32) (ix2 k q) = (V m c main_arg2 : Vec F S128x128 .f32) (ix2 k q) := by
  obtain ⟨-, -, -, -, e0, e1, -⟩ := tiles t
  unfold iblk
  rw [View.read_apply]
  refine congrArg (V m c main_arg2 : Vec F S128x128 .f32) ?_
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The second weight matrix's block at any point is the matrix. -/
theorem whole_w2 (c : Dev nD) (t : Fin cfg0.N) (k q : Fin 128) :
    (iblk m c 3 t : Vec F S128x128 .f32) (ix2 k q) = (V m c main_arg3 : Vec F S128x128 .f32) (ix2 k q) := by
  obtain ⟨-, -, -, -, -, -, e0, e1, -⟩ := tiles t
  unfold iblk
  rw [View.read_apply]
  refine congrArg (V m c main_arg3 : Vec F S128x128 .f32) ?_
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Entry `(p, q)` of the result's block at point `t` sits at `(2000·t + p, q)` of the result. -/
theorem result_at (t : Fin cfg0.N) (p : Fin 2000) (q : Fin 128) (r : Fin 100000) (hr : r.val = t.val * 2000 + p.val) :
    ((cfg0.win 4).blk t).view.emb (ix2 p q) = (ix2 r q : S100000x128.Idx) := by
  obtain ⟨-, -, -, -, -, -, -, -, e0, e1⟩ := tiles t
  funext a
  apply Fin.ext
  match a with
  | ⟨0, _⟩ => show win0_4.index t (0 : Fin 2) * 2000 + 1 * p.val = r.val; rw [e0, hr]; omega
  | ⟨1, _⟩ => show win0_4.index t (1 : Fin 2) * 128 + 1 * q.val = q.val; rw [e1]; omega

/-! ## What a point writes back -/

/-- What point `t` writes back to the result, at `(p, q)`, is what the body stored there from the four input blocks at `t`: the
    body's one store covers its buffer from offset zero, and the block is not cut at the array's end, so the part written back
    is all of it. -/
theorem written_back (c : Dev nD) (t : Fin cfg0.N) (p : Fin 2000) (q : Fin 128) :
    (dats m 0 c).flushed 4 t (ix2 p q)
      = (k0_pay1 (iblk m c 0 t) (iblk m c 1 t) (iblk m c 2 t) (iblk m c 3 t) : Vec F S2000x128 .f32) (ix2 p q) := by
  rw [Cert.KernelIdeal.Value.flushed4]
  unfold out0_4
  rw [View.canon_unit_zero noOffset]
  simp only [View.ld_unit_zero (S := S2000x128) noOffset, View.ld_unit_zero (S := S128x128) noOffset]
  show (k0_pay1 (iblk m c 0 t) (iblk m c 1 t) (iblk m c 2 t) (iblk m c 3 t) : Vec F S2000x128 .f32)
      ((cfg0.win 4).xinj (grid0.coords t) (ix2 p q)) = _
  refine congrArg (k0_pay1 (iblk m c 0 t) (iblk m c 1 t) (iblk m c 2 t) (iblk m c 3 t) : Vec F S2000x128 .f32) ?_
  funext a
  apply Fin.ext
  rfl

/-- So, for any array `G`: if every entry `(p, q)` of what the body stores at point `t` is entry `(2000·t + p, q)` of `G`, then what
    point `t` writes back is block `t` of `G`. -/
theorem writes_block_of (c : Dev nD) (t : Fin cfg0.N) (G : Vec F S100000x128 .f32)
    (hG : ∀ (p : Fin 2000) (q : Fin 128) (r : Fin 100000), r.val = t.val * 2000 + p.val →
      (k0_pay1 (iblk m c 0 t) (iblk m c 1 t) (iblk m c 2 t) (iblk m c 3 t) : Vec F S2000x128 .f32) (ix2 p q) = G (ix2 r q)) :
    (dats m 0 c).flushed 4 t = ((cfg0.win 4).blk t).view.read (Elt F) G := by
  have ht := point_lt t
  refine funext fun (y : S2000x128.Idx) => ?_
  obtain ⟨p, q, rfl⟩ : ∃ (p : Fin 2000) (q : Fin 128), y = ix2 p q := ⟨y 0, y 1, eq_ix2 y⟩
  have hp := p.isLt
  rw [written_back m c t p q, View.read_apply, result_at t p q (⟨t.val * 2000 + p.val, by omega⟩ : Fin 100000) rfl]
  exact hG p q (⟨t.val * 2000 + p.val, by omega⟩ : Fin 100000) rfl

/-! ## The blocks cover the result -/

/-- An index of the result is in point `t`'s block iff each coordinate is in the block's range on its axis. -/
theorem mem_block (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v45).slice (win0_4.rect t)).set ↔ _
  rw [View.set_slice_whole, Rect.mem_set_unit]
  exact Iff.rfl

/-- Row `r` is in the block of point `r / 2000`, and every point writes back. -/
theorem covered (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, q0, q1⟩ := tile_of ⟨(i 0).val / 2000, by omega⟩
  refine ⟨t, flush0_4 t, ?_⟩
  rw [mem_block]
  intro a
  match a with
  | ⟨0, _⟩ => show win0_4.index t (0 : Fin 2) * 2000 ≤ (i 0).val ∧ (i 0).val < win0_4.index t (0 : Fin 2) * 2000 + 2000; rw [q0]; dsimp only; omega
  | ⟨1, _⟩ => show win0_4.index t (1 : Fin 2) * 128 ≤ (i 1).val ∧ (i 1).val < win0_4.index t (1 : Fin 2) * 128 + 128; rw [q1]; omega

end Cert.KernelIdeal.RowsOfBlocks

end
-- ==== Proof.DenseLayer.lean ====
/-
  The dense stage of a GCNII layer, on the extended reals.

  For propagated features `h` and initial features `x0`, both `[n, 128]`, and two weight matrices `W1`, `W2`, both
  `[128, 128]`, entry `(p, c)` of the stage's output is

      max ( ((a · h[p,c] + β · ∑ k, h[p,k] · W1[k,c]) + a · x0[p,c]) + β · ∑ k, x0[p,k] · W2[k,c] , 0 ),

  where `a` is the float nearest `(1 - α)(1 - β) = α(1 - β)` at `α = 1/2`, and `β` the float nearest `log 2`. Both are kept as
  the 32-bit words they are: the same word stands on both sides of every equation below, so neither is ever evaluated. The
  three additions are grouped exactly as written, left to right; nothing here regroups a sum, distributes a product or cancels,
  so no entry needs to be finite.

  Row `p` of the output depends on row `p` of `h` and of `x0` alone (and on column `c` of `W1` and `W2`): `entry_congr`. That is what
  lets the stage be computed a block of rows at a time.
-/
import Idealize.ShloMosaic.Lib.ValueIdx

noncomputable section

open scoped BigOperators

namespace Cert.DenseLayer

open Idealize.ShloMosaic Idealize.ShloMosaic.ValueIdx

/-- The weight of the two residual terms, `h` and `x0` themselves. -/
abbrev resid : EReal := Ideal.ofBits .f32 0x3E1D1BD0#32
/-- The weight of the two matrix products. -/
abbrev beta : EReal := Ideal.ofBits .f32 0x3F317218#32
/-- The floor of the final rectification: the zero word. -/
abbrev floor0 : EReal := Ideal.ofBits .f32 0x00000000#32

/-- Entry `(p, c)` of the dense stage. -/
def entry {n : ℕ} (h x0 : FVec Ideal ⟨2, ![n, 128]⟩ .f32) (w1 w2 : FVec Ideal ⟨2, ![128, 128]⟩ .f32) (p : Fin n) (c : Fin 128) : EReal :=
  max (((resid * h (ix2 p c) + beta * ∑ k : Fin 128, h (ix2 p k) * w1 (ix2 k c)) + resid * x0 (ix2 p c))
        + beta * ∑ k : Fin 128, x0 (ix2 p k) * w2 (ix2 k c)) floor0

/-- The dense stage: the whole `[n, 128]` output, entry by entry. -/
def dense {n : ℕ} (h x0 : FVec Ideal ⟨2, ![n, 128]⟩ .f32) (w1 w2 : FVec Ideal ⟨2, ![128, 128]⟩ .f32) : FVec Ideal ⟨2, ![n, 128]⟩ .f32 :=
  fun i => entry h x0 w1 w2 (i 0) (i 1)

theorem dense_ix2 {n : ℕ} (h x0 : FVec Ideal ⟨2, ![n, 128]⟩ .f32) (w1 w2 : FVec Ideal ⟨2, ![128, 128]⟩ .f32) (p : Fin n) (c : Fin 128) :
    dense h x0 w1 w2 (ix2 p c) = entry h x0 w1 w2 p c := rfl

/-- An entry reads one row of `h`, the same row of `x0`, and one column of each weight matrix: two sets of operands, the feature
    matrices of any heights, that agree on a row `p` of the one and `p'` of the other and on column `c` of the weights give the
    same entry there. -/
theorem entry_congr {n n' : ℕ} (h x0 : FVec Ideal ⟨2, ![n, 128]⟩ .f32) (h' x0' : FVec Ideal ⟨2, ![n', 128]⟩ .f32)
    (w1 w2 w1' w2' : FVec Ideal ⟨2, ![128, 128]⟩ .f32) (p : Fin n) (p' : Fin n') (c : Fin 128)
    (hh : ∀ k : Fin 128, h (ix2 p k) = h' (ix2 p' k)) (hx : ∀ k : Fin 128, x0 (ix2 p k) = x0' (ix2 p' k))
    (hw1 : ∀ k : Fin 128, w1 (ix2 k c) = w1' (ix2 k c)) (hw2 : ∀ k : Fin 128, w2 (ix2 k c) = w2' (ix2 k c)) :
    entry h x0 w1 w2 p c = entry h' x0' w1' w2' p' c := by
  have e1 : (∑ k : Fin 128, h (ix2 p k) * w1 (ix2 k c)) = ∑ k : Fin 128, h' (ix2 p' k) * w1' (ix2 k c) :=
    Finset.sum_congr rfl fun k _ => by rw [hh k, hw1 k]
  have e2 : (∑ k : Fin 128, x0 (ix2 p k) * w2 (ix2 k c)) = ∑ k : Fin 128, x0' (ix2 p' k) * w2' (ix2 k c) :=
    Finset.sum_congr rfl fun k _ => by rw [hx k, hw2 k]
  unfold entry
  rw [hh c, hx c, e1, e2]

end Cert.DenseLayer

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.BlockBody.lean ====
/-
  What the kernel's body stores for one block of rows.

  The body loads a `[2000, 128]` block of the propagated features `h`, the same rows of the initial features `x0`, and the two
  `[128, 128]` weight matrices; narrows all four to bf16 (the identity on extended reals); forms `h · W1` and `x0 · W2` on the
  matrix unit into zero accumulators; and stores `max(((a·h + β·hW1) + a·x0) + β·x0W2, 0)`. Entry `(p, q)` of what it stores is
  therefore the dense stage's entry `(p, q)` of the loaded blocks: each product's entry is the plain sum over the contracted
  axis, everything else is pointwise, and the grouping of the three additions is the stage's own.
-/
import proofs.«110994_j6150393168666_1_alg».proof.Proof.Gen.KernelIdeal.Skeleton
import proofs.«110994_j6150393168666_1_alg».proof.Proof.DenseLayer
import proofs.«110994_j6150393168666_1_alg».proof.Proof.LibPlainProduct
import Idealize.ShloMosaic.Lib.Pipeline.Value

noncomputable section

open scoped BigOperators

namespace Cert.KernelIdeal.BlockBody

open Cert.KernelIdeal Cert.KernelIdeal.Gen Idealize.ShloMosaic Idealize.ShloMosaic.ValueIdx Cert.DenseLayer

/-! ## The products' dimension numbers: rows by the first operand, columns by the second, one contracted axis of extent 128 -/

theorem lhs_row (j : S2000x128.Idx) (q : dot_S2000x128_S128x128_S2000x128_1_0_0_1_n_n.contr.Idx) :
    (dot_S2000x128_S128x128_S2000x128_1_0_0_1_n_n.lhsIdx j q (0 : Fin 2)).val = (j (0 : Fin 2)).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_contracted (j : S2000x128.Idx) (q : dot_S2000x128_S128x128_S2000x128_1_0_0_1_n_n.contr.Idx) :
    (dot_S2000x128_S128x128_S2000x128_1_0_0_1_n_n.lhsIdx j q (1 : Fin 2)).val = (q ⟨0, by decide⟩).val :=
  dot_S2000x128_S128x128_S2000x128_1_0_0_1_n_n.lhsIdx_val_of_single rfl j q
theorem rhs_contracted (j : S2000x128.Idx) (q : dot_S2000x128_S128x128_S2000x128_1_0_0_1_n_n.contr.Idx) :
    (dot_S2000x128_S128x128_S2000x128_1_0_0_1_n_n.rhsIdx j q (0 : Fin 2)).val = (q ⟨0, by decide⟩).val :=
  dot_S2000x128_S128x128_S2000x128_1_0_0_1_n_n.rhsIdx_val_of_single rfl j q
theorem rhs_column (j : S2000x128.Idx) (q : dot_S2000x128_S128x128_S2000x128_1_0_0_1_n_n.contr.Idx) :
    (dot_S2000x128_S128x128_S2000x128_1_0_0_1_n_n.rhsIdx j q (1 : Fin 2)).val = (j (1 : Fin 2)).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry `(p, q)` of a block product into the zero accumulator is `∑ k, l[p, k] · r[k, q]`. -/
theorem product_entry {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  Cert.PlainProduct.matmul_zero_entry dot_S2000x128_S128x128_S2000x128_1_0_0_1_n_n rfl rfl lhs_row lhs_contracted rhs_contracted rhs_column l r p q

/-! ## The stored block, entry by entry -/

/-- What the body stores, at `(p, q)`, is the dense stage's entry `(p, q)` of the four loaded blocks. -/
theorem stored_entry (x0 x1 : Vec Ideal S2000x128 .f32) (x2 x3 : Vec Ideal S128x128 .f32) (p : Fin 2000) (q : Fin 128) :
    k0_pay1 (F := Ideal) x0 x1 x2 x3 (ix2 p q) = entry x0 x1 x2 x3 p q := by
  have hc : shapeCast S2000x128 x0 shapeCasts_S2000x128_S2000x128 = x0 := shapeCast_self x0 _
  unfold k0_pay1 entry
  simp only [hc]
  show max (((resid * x0 (ix2 p q)
        + beta * matmul dot_S2000x128_S128x128_S2000x128_1_0_0_1_n_n none (truncf .bf16 x0 bitsLt_bf16_f32) (truncf .bf16 x2 bitsLt_bf16_f32)
            (constant (F := Ideal) S2000x128 .f32 0x00000000#32) (ix2 p q))
        + resid * x1 (ix2 p q))
        + beta * matmul dot_S2000x128_S128x128_S2000x128_1_0_0_1_n_n none (truncf .bf16 x1 bitsLt_bf16_f32) (truncf .bf16 x3 bitsLt_bf16_f32)
            (constant (F := Ideal) S2000x128 .f32 0x00000000#32) (ix2 p q)) floor0 = _
  rw [product_entry, product_entry]
  rfl

end Cert.KernelIdeal.BlockBody

end
-- ==== Proof.Propagation.lean ====
/-
  Graph propagation with self-loops and symmetric normalisation, as a host computes it from an edge list.

  The graph has 100000 nodes and 800000 directed edges, given as a `[2, 800000]` array of node numbers: row 0 the
  sources, row 1 the targets. Every node also gets a self-loop, so there are 900000 links: link `e < 800000` is edge `e`, and
  link `800000 + v` joins node `v` to itself. With
      deg[v]  = the number of links whose target is `v`                  (a scatter-add of ones),
      dis[v]  = deg[v]^(-1/2) where deg[v] > 0, and 0 elsewhere,
      w[e]    = dis[src e] · 1 · dis[tgt e],
  the propagated features are
      h[v, c] = ∑ over the links e with target v of  w[e] · x[src e, c]   (a scatter-add of the weighted source rows).
  A node number is read signed; a negative one is first moved up by 100000 (the wrap-around of a negative index), and what a
  gather or scatter then does with a number outside `0 … 99999` is whatever those two operations do: nothing here looks
  inside them. Each function below is stated for any float instance and is exactly the host operations' composition, one
  definition per quantity above, so that two programs that both compute `h` this way meet at the same term.
-/
import Idealize.ShloMosaic.Lib.ValueIdx

noncomputable section

namespace Cert.Propagation

open Idealize.ShloMosaic

/-! ## The shapes -/

abbrev Nodes : Shape := ⟨1, ![100000]⟩
abbrev Feats : Shape := ⟨2, ![100000, 128]⟩
abbrev EdgeList : Shape := ⟨2, ![2, 800000]⟩
abbrev EdgeRow : Shape := ⟨2, ![1, 800000]⟩
abbrev Edges : Shape := ⟨1, ![800000]⟩
abbrev Links : Shape := ⟨1, ![900000]⟩
abbrev LinkCol : Shape := ⟨2, ![900000, 1]⟩
abbrev LinkFeats : Shape := ⟨2, ![900000, 128]⟩
abbrev Unit0 : Shape := ⟨0, ![]⟩

/-! ## The shape facts the operations ask for -/

theorem row0 : EdgeList.Slices ![0, 0] EdgeRow := by decide
theorem row1 : EdgeList.Slices ![1, 0] EdgeRow := by decide
theorem flat : EdgeRow.ShapeCasts Edges := by decide
theorem joined : Shape.Concatenates [Edges, Nodes] Links 0 := by decide
theorem toLinks : Unit0.BroadcastsInDim Links (![] : Fin 0 → Fin Links.rank) := by decide
theorem toNodes : Unit0.BroadcastsInDim Nodes (![] : Fin 0 → Fin Nodes.rank) := by decide
theorem toFeats : Unit0.BroadcastsInDim Feats (![] : Fin 0 → Fin Feats.rank) := by decide
theorem toCol : Links.BroadcastsInDim LinkCol (![0] : Fin 1 → Fin LinkCol.rank) := by decide
theorem acrossFeats : LinkCol.BroadcastsInDim LinkFeats (![0, 1] : Fin 2 → Fin LinkFeats.rank) := by decide

/-- Adding one number per link onto the node its index names. -/
def nodeScatter : ScatterDims Nodes LinkCol Links where
  updateWindowDims := []
  insertedWindowDims := [0]
  scatterDimsToOperandDims := [0]
  indexVectorDim := 1
  wf := by decide
/-- Reading, for each link, the number of the node its index names. -/
def nodeGather : GatherDims Nodes LinkCol Links where
  offsetDims := []
  collapsedSliceDims := [0]
  operandBatchingDims := []
  startIndicesBatchingDims := []
  startIndexMap := [0]
  indexVectorDim := 1
  sliceSizes := ![1]
  wf := by decide
/-- Reading, for each link, the whole feature row of the node its index names. -/
def rowGather : GatherDims Feats LinkCol LinkFeats where
  offsetDims := [1]
  collapsedSliceDims := [0]
  operandBatchingDims := []
  startIndicesBatchingDims := []
  startIndexMap := [0]
  indexVectorDim := 1
  sliceSizes := ![1, 128]
  wf := by decide
/-- Adding one feature row per link onto the row of the node its index names. -/
def rowScatter : ScatterDims Feats LinkCol LinkFeats where
  updateWindowDims := [1]
  insertedWindowDims := [0]
  scatterDimsToOperandDims := [0]
  indexVectorDim := 1
  wf := by decide

variable {F : FTy → Type} [FloatOps F]

/-! ## The links' endpoints -/

/-- The source of every link: row 0 of the edge list, then every node once. -/
def sources (e : IVec EdgeList 32) : IVec Links 32 :=
  concatenate Links 0 [⟨Edges, shapeCast Edges (extractStridedSlice EdgeRow ![0, 0] e row0) flat⟩, ⟨Nodes, iotaInDim Nodes 32 0⟩] joined
/-- The target of every link: row 1 of the edge list, then every node once. -/
def targets (e : IVec EdgeList 32) : IVec Links 32 :=
  concatenate Links 0 [⟨Edges, shapeCast Edges (extractStridedSlice EdgeRow ![1, 0] e row1) flat⟩, ⟨Nodes, iotaInDim Nodes 32 0⟩] joined
/-- A node number as an index: a negative one moved up by the number of nodes. -/
def wrapped (i : IVec Links 32) : IVec Links 32 :=
  select (cmpi .slt i (broadcastInDim Links ![] toLinks (constantI Unit0 32 0#32)))
    (addi i (broadcastInDim Links ![] toLinks (constantI Unit0 32 100000#32))) i

/-! ## Degrees and weights -/

/-- One per link. -/
def ones : FVec F Links .f32 := broadcastInDim Links ![] toLinks (constant (F := F) Unit0 .f32 0x3F800000#32)
/-- Zero per node. -/
def noDegree : FVec F Nodes .f32 := broadcastInDim Nodes ![] toNodes (constant (F := F) Unit0 .f32 0x00000000#32)
/-- The number of links into each node, counted with the weights `one`. -/
def degree (one : FVec F Links .f32) (t : IVec Links 32) : FVec F Nodes .f32 :=
  Host.scatterAdd nodeScatter (noDegree (F := F)) (broadcastInDim LinkCol ![0] toCol t) one
/-- `deg^(-1/2)` where the degree is positive, zero elsewhere. -/
def invSqrtDegree (one : FVec F Links .f32) (t : IVec Links 32) : FVec F Nodes .f32 :=
  select (cmpf .ogt (degree one t) (noDegree (F := F))) (Host.rsqrt (degree one t)) (noDegree (F := F))
/-- The weight of every link: `dis[src] · 1 · dis[tgt]`. -/
def linkWeight (dis : FVec F Nodes .f32) (one : FVec F Links .f32) (s t : IVec Links 32) : FVec F Links .f32 :=
  mulf (mulf (Host.gather nodeGather dis (broadcastInDim LinkCol ![0] toCol (wrapped s))) one)
    (Host.gather nodeGather dis (broadcastInDim LinkCol ![0] toCol (wrapped t)))

/-! ## The propagated features -/

/-- Every link's weighted source row added onto its target's row, from all zeros. -/
def spread (x : FVec F Feats .f32) (dis : FVec F Nodes .f32) (one : FVec F Links .f32) (s t : IVec Links 32) : FVec F Feats .f32 :=
  Host.scatterAdd rowScatter (broadcastInDim Feats ![] toFeats (constant (F := F) Unit0 .f32 0x00000000#32))
    (broadcastInDim LinkCol ![0] toCol t)
    (mulf (broadcastInDim LinkFeats ![0, 1] acrossFeats (broadcastInDim LinkCol ![0] toCol (linkWeight dis one s t)))
      (Host.gather rowGather x (broadcastInDim LinkCol ![0] toCol (wrapped s))))

/-- The propagated features of `x` over the graph `e`. -/
def propagated (x : FVec F Feats .f32) (e : IVec EdgeList 32) : FVec F Feats .f32 :=
  spread x (invSqrtDegree (ones (F := F)) (targets e)) (ones (F := F)) (sources e) (targets e)

end Cert.Propagation

end
-- ==== Proof.LibFoldSplit.lean ====
/-
  Two general facts about a straight line of host operations, for reading such a line back a stretch at a time.

  * `after_append`, `after_take_drop`: the contents after a list of operations is the contents after its tail from the
    contents after its head — so a long line can be cut at any position, the first part read once, and the second part read
    over the first part's buffers as opaque arrays.
  * `ofBuf_toBuf`: an operation of an outlined function is stated over typed references, whose contents are moved to the
    buffer's own type and back along the reference's type equation; a value moved there and back is the value. Unlike a
    rewrite that must recognise each move as the identity, this cancels the pair as it stands, whatever the buffer's
    position in the signature.
-/
import Idealize.ShloMosaic.Lib.StableHlo.Run

noncomputable section

namespace Cert.FoldSplit

open Idealize.ShloMosaic Idealize.ShloMosaic.StableHlo

variable {τ : Topo} {sig : RefSig} {Val : EltTy → Type}

/-- The contents after two lists of operations run one after the other: the second list's, from the first's. -/
theorem after_append (l1 l2 : List (HloOp τ sig Val)) (V : Valuation τ sig Val) :
    after (l1 ++ l2) V = after l2 (after l1 V) := by
  induction l1 generalizing V with
  | nil => rfl
  | cons op l ih => exact ih _

/-- A list of operations cut at position `n`: its first `n` operations, then the rest from what they leave. -/
theorem after_take_drop (n : ℕ) (l : List (HloOp τ sig Val)) (V : Valuation τ sig Val) :
    after l V = after (l.drop n) (after (l.take n) V) :=
  (congrArg (fun k => after k V) (List.take_append_drop n l).symm).trans (after_append _ _ _)

/-- Contents moved to a typed reference's own buffer type and back are the contents. -/
theorem ofBuf_toBuf {T : BufTy} (x : TRef sig T) (v : T.Contents Val) : x.ofBuf (x.toBuf v) = v := by
  obtain ⟨r, h, h1, h2⟩ := x
  subst h
  rfl

end Cert.FoldSplit

end
-- ==== Proof.RegionEntry.lean ====
/-
  What the kernel's region finds in its first operand: the propagated features.

  Before the region the program runs three stretches of host operations: the links' endpoints, the constant vectors, the
  degree and its inverse square root's two ingredients (19 operations); the selection `deg > 0 ? deg^(-1/2) : 0`, which the
  compiler outlined as a function of its own (1 operation); and the links' weights, the gathered source rows and the
  scatter-add that sums them per target (36 operations). Each stretch is read at the buffers the next one uses, as the
  propagation's named functions of the buffers it started from; the stretches are then composed. Nothing is specific to a
  float instance, and nothing opens a gather or a scatter.
-/
import proofs.«110994_j6150393168666_1_alg».proof.Proof.Gen.KernelIdeal.Frame
import proofs.«110994_j6150393168666_1_alg».proof.Proof.Propagation
import proofs.«110994_j6150393168666_1_alg».proof.Proof.LibFoldSplit
import Idealize.ShloMosaic.Lib.StableHlo.Run

noncomputable section

namespace Cert.KernelIdeal.RegionEntry

open Cert.KernelIdeal Cert.KernelIdeal.Gen Idealize.ShloMosaic Idealize.ShloMosaic.TcCoe Idealize.SL.Sem
open Idealize.ShloMosaic.StableHlo Cert.Propagation

variable {F : FTy → Type} [FloatOps F]

/-! ## The first two stretches: endpoints, ones, and the inverse square root of the degree -/

set_option maxRecDepth 8192 in
theorem first_sources (W : Valuation τ sig (Elt F)) :
    after (hostOps0 ++ hostOps0_1) W (Proc.devRef .tc main_v3) = sources (W (Proc.devRef .tc main_arg4)) := by
  simp only [hostOps0, hostOps0_1, List.cons_append, List.nil_append]
  after_results_simp
  rfl

set_option maxRecDepth 8192 in
theorem first_targets (W : Valuation τ sig (Elt F)) :
    after (hostOps0 ++ hostOps0_1) W (Proc.devRef .tc main_v6) = targets (W (Proc.devRef .tc main_arg4)) := by
  simp only [hostOps0, hostOps0_1, List.cons_append, List.nil_append]
  after_results_simp
  rfl

set_option maxRecDepth 8192 in
theorem first_ones (W : Valuation τ sig (Elt F)) :
    after (hostOps0 ++ hostOps0_1) W (Proc.devRef .tc main_v7) = ones (F := F) := by
  simp only [hostOps0, hostOps0_1, List.cons_append, List.nil_append]
  after_results_simp
  rfl

set_option maxRecDepth 8192 in
theorem first_invSqrtDegree (W : Valuation τ sig (Elt F)) :
    after (hostOps0 ++ hostOps0_1) W (Proc.devRef .tc main_v15)
      = invSqrtDegree (ones (F := F)) (targets (W (Proc.devRef .tc main_arg4))) := by
  simp only [hostOps0, hostOps0_1, List.cons_append, List.nil_append]
  after_results_simp
  rfl

set_option maxRecDepth 8192 in
theorem first_features (W : Valuation τ sig (Elt F)) :
    after (hostOps0 ++ hostOps0_1) W (Proc.devRef .tc main_arg0) = W (Proc.devRef .tc main_arg0) := by
  simp only [hostOps0, hostOps0_1, List.cons_append, List.nil_append]
  after_results_simp

/-! ## The third stretch: weights, gathered rows, the sum per target -/

set_option maxRecDepth 8192 in
theorem third_spread (W : Valuation τ sig (Elt F)) :
    after hostOps0_2 W (Proc.devRef .tc main_v44)
      = spread (W (Proc.devRef .tc main_arg0)) (W (Proc.devRef .tc main_v15)) (W (Proc.devRef .tc main_v7))
          (W (Proc.devRef .tc main_v3)) (W (Proc.devRef .tc main_v6)) := by
  after_results_simp
  rfl

/-! ## Composed -/

variable (m : (ℓ : Loc nD τ sig) → Buf (Elt F) ℓ)

/-- The region's first operand holds the propagated features of the program's first argument over its edge list. -/
theorem found_propagated (c : Dev nD) :
    V m c main_v44 = propagated (m ((c : Thread nD τ).loc main_arg0)) (m ((c : Thread nD τ).loc main_arg4)) := by
  show after (List.flatten [hostOps0, hostOps0_1, hostOps0_2]) (fun b => m (c, b)) (Proc.devRef .tc main_v44) = _
  rw [show List.flatten [hostOps0 (F := F), hostOps0_1, hostOps0_2] = (hostOps0 ++ hostOps0_1) ++ hostOps0_2 from by
    simp only [List.flatten_cons, List.flatten_nil, List.append_nil, List.append_assoc]]
  rw [Cert.FoldSplit.after_append, third_spread, first_features, first_invSqrtDegree, first_ones, first_sources, first_targets]
  rfl

end Cert.KernelIdeal.RegionEntry

end
-- ==== Proof.RowBlocks.lean ====
/-
  From blocks of rows to the whole array: after the kernel's run its result array is the dense stage of the whole operands.

  At grid point `t` the body is handed rows `2000·t … 2000·t + 1999` of the propagated features and of the initial features, and
  the two weight matrices whole, and its stored block goes back to the same rows of the result. An entry of the dense stage
  reads one row of each feature matrix, so entry `(p, q)` of the block stored at `t` is entry `(2000·t + p, q)` of the stage of
  the whole arrays; the blocks cover the result; so the result array ends as that stage, of the propagated features the region
  found in its first operand and of the program's other three float arguments.
-/
import proofs.«110994_j6150393168666_1_alg».proof.Proof.RowsOfBlocks
import proofs.«110994_j6150393168666_1_alg».proof.Proof.BlockBody
import proofs.«110994_j6150393168666_1_alg».proof.Proof.RegionEntry

noncomputable section

namespace Cert.KernelIdeal.RowBlocks

open Cert.KernelIdeal Cert.KernelIdeal.Gen Cert.KernelIdeal.Value Idealize.ShloMosaic Idealize.ShloMosaic.TcCoe Idealize.SL.Sem
open Idealize.ShloMosaic.ValueIdx Cert.DenseLayer Cert.KernelIdeal.BlockBody Cert.KernelIdeal.RowsOfBlocks
open Idealize.ShloMosaic.Pipeline (Dat)

variable (m : (ℓ : Loc nD τ sig) → Buf (Elt Ideal) ℓ) (ρ : Dev nD → PrngReg)

/-! ## What a point writes back -/

/-- The dense stage of the arrays the region finds. -/
def wholeStage (c : Dev nD) : Vec Ideal S100000x128 .f32 :=
  dense (V m c main_v44) (V m c main_arg1) (V m c main_arg2) (V m c main_arg3)

/-- Entry `(p, q)` of the block the body stores at point `t` is entry `(2000·t + p, q)` of the stage of the whole arrays. -/
theorem stored_is_stage (c : Dev nD) (t : Fin cfg0.N) (p : Fin 2000) (q : Fin 128) (r : Fin 100000) (hr : r.val = t.val * 2000 + p.val) :
    k0_pay1 (F := Ideal) (iblk m c 0 t) (iblk m c 1 t) (iblk m c 2 t) (iblk m c 3 t) (ix2 p q) = wholeStage m c (ix2 r q) :=
  (stored_entry (iblk m c 0 t) (iblk m c 1 t) (iblk m c 2 t) (iblk m c 3 t) p q).trans
    (entry_congr (iblk m c 0 t) (iblk m c 1 t) (V m c main_v44) (V m c main_arg1) (iblk m c 2 t) (iblk m c 3 t) (V m c main_arg2) (V m c main_arg3) p r q
      (fun k => rows_h m c t p k r hr) (fun k => rows_x0 m c t p k r hr) (fun k => whole_w1 m c t k q) (fun k => whole_w2 m c t k q))

/-- What point `t` writes back is block `t` of the dense stage of the whole arrays. -/
theorem flushed_stage (c : Dev nD) (t : Fin cfg0.N) :
    (dats m 0 c).flushed 4 t = ((cfg0.win 4).blk t).view.read (Elt Ideal) (wholeStage m c) :=
  writes_block_of m c t (wholeStage m c) (fun p q r hr => stored_is_stage m c t p q r hr)

/-! ## The result array, and the run -/

/-- The kernel's function of the program's arguments: the dense stage of the propagated features of the first argument over the
    edge list, of the second argument, and of the two weight matrices. -/
def result (c : Dev nD) : Vec Ideal S100000x128 .f32 :=
  dense (Cert.Propagation.propagated (m ((c : Thread nD τ).loc main_arg0)) (m ((c : Thread nD τ).loc main_arg4)))
    (m ((c : Thread nD τ).loc main_arg1)) (m ((c : Thread nD τ).loc main_arg2)) (m ((c : Thread nD τ).loc main_arg3))

/-- The stage of what the region finds is the stage of the arguments: its first operand holds the propagated features, and no
    host operation wrote the other three. -/
theorem wholeStage_eq (c : Dev nD) : wholeStage m c = result m c := by
  unfold wholeStage result
  rw [Cert.KernelIdeal.RegionEntry.found_propagated, V_main_arg1, V_main_arg2, V_main_arg3]

/-- After the run the result array is that function of the arguments: the blocks written back cover it. -/
theorem final (c : Dev nD) : (dats m 0 c).arrAt 4 cfg0.N = result m c :=
  ((dats m 0 c).arrAt_eq_of_cover 4 (wholeStage m c) (fun t _ => flushed_stage m c t) covered).trans (wholeStage_eq m c)

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.RowBlocks

end
-- ==== Proof.ReferenceLine.lean ====
/-
  The reference program's run, as a straight line of host operations.

  The reference is one straight line of 76 host operations (the two functions the compiler outlined, the selection
  `deg > 0 ? deg^(-1/2) : 0` and the final rectification, stand at their calls as the operations they are). Every weakly
  fair execution of it terminates, without a fault, with each buffer holding the fold of the operations' results over the
  launch contents. The line is cut where the kernel's program is cut: the 20 operations up to the inverse square root of the
  degree, the 36 that end in the propagated features, and the 20 of the dense stage.
-/
import proofs.«110994_j6150393168666_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The whole line, in program order. -/
abbrev ops : List (HloOp τ sig (Elt F)) :=
  [ nullary main_v0 (iotaInDim S100000 32 0),
    unary main_arg4 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg4 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst (constant S_ .f32 0x3F800000#32),
    unary main_cst main_v7 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S900000x1 ![0] bcast_S900000_S900000x1_0 : (⟨S900000, .i32⟩ : BufTy).Contents (Elt F) → (⟨S900000x1, .i32⟩ : BufTy).Contents (Elt F)),
    ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    TRef.ternary (TRef.of (T := ⟨S100000, .i1⟩) main_v12) (TRef.of (T := ⟨S100000, .f32⟩) main_v13) (TRef.of (T := ⟨S100000, .f32⟩) main_v14) (TRef.of (T := ⟨S100000, .f32⟩) main_v15) select,
    nullary main_c (constantI S_ 32 0#32),
    unary main_c main_v16 (broadcastInDim S900000 ![] bcast_S_S900000 : (⟨S_, .i32⟩ : BufTy).Contents (Elt F) → (⟨S900000, .i32⟩ : BufTy).Contents (Elt F)),
    binary main_v3 main_v16 main_v17 (cmpi .slt : (⟨S900000, .i32⟩ : BufTy).Contents (Elt F) → (⟨S900000, .i32⟩ : BufTy).Contents (Elt F) → (⟨S900000, .i1⟩ : BufTy).Contents (Elt F)),
    nullary main_c_3 (constantI S_ 32 100000#32),
    unary main_c_3 main_v18 (broadcastInDim S900000 ![] bcast_S_S900000 : (⟨S_, .i32⟩ : BufTy).Contents (Elt F) → (⟨S900000, .i32⟩ : BufTy).Contents (Elt F)),
    binary main_v3 main_v18 main_v19 (addi : (⟨S900000, .i32⟩ : BufTy).Contents (Elt F) → (⟨S900000, .i32⟩ : BufTy).Contents (Elt F) → (⟨S900000, .i32⟩ : BufTy).Contents (Elt F)),
    ternary main_v17 main_v19 main_v3 main_v20 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v20 main_v21 (broadcastInDim S900000x1 ![0] bcast_S900000_S900000x1_0 : (⟨S900000, .i32⟩ : BufTy).Contents (Elt F) → (⟨S900000x1, .i32⟩ : BufTy).Contents (Elt F)),
    binary main_v15 main_v21 main_v22 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v22 main_v7 main_v23 (mulf : (⟨S900000, .f32⟩ : BufTy).Contents (Elt F) → (⟨S900000, .f32⟩ : BufTy).Contents (Elt F) → (⟨S900000, .f32⟩ : BufTy).Contents (Elt F)),
    nullary main_c_4 (constantI S_ 32 0#32),
    unary main_c_4 main_v24 (broadcastInDim S900000 ![] bcast_S_S900000 : (⟨S_, .i32⟩ : BufTy).Contents (Elt F) → (⟨S900000, .i32⟩ : BufTy).Contents (Elt F)),
    binary main_v6 main_v24 main_v25 (cmpi .slt : (⟨S900000, .i32⟩ : BufTy).Contents (Elt F) → (⟨S900000, .i32⟩ : BufTy).Contents (Elt F) → (⟨S900000, .i1⟩ : BufTy).Contents (Elt F)),
    nullary main_c_5 (constantI S_ 32 100000#32),
    unary main_c_5 main_v26 (broadcastInDim S900000 ![] bcast_S_S900000 : (⟨S_, .i32⟩ : BufTy).Contents (Elt F) → (⟨S900000, .i32⟩ : BufTy).Contents (Elt F)),
    binary main_v6 main_v26 main_v27 (addi : (⟨S900000, .i32⟩ : BufTy).Contents (Elt F) → (⟨S900000, .i32⟩ : BufTy).Contents (Elt F) → (⟨S900000, .i32⟩ : BufTy).Contents (Elt F)),
    ternary main_v25 main_v27 main_v6 main_v28 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v28 main_v29 (broadcastInDim S900000x1 ![0] bcast_S900000_S900000x1_0 : (⟨S900000, .i32⟩ : BufTy).Contents (Elt F) → (⟨S900000x1, .i32⟩ : BufTy).Contents (Elt F)),
    binary main_v15 main_v29 main_v30 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v23 main_v30 main_v31 (mulf : (⟨S900000, .f32⟩ : BufTy).Contents (Elt F) → (⟨S900000, .f32⟩ : BufTy).Contents (Elt F) → (⟨S900000, .f32⟩ : BufTy).Contents (Elt F)),
    unary main_v31 main_v32 (broadcastInDim S900000x1 ![0] bcast_S900000_S900000x1_0 : (⟨S900000, .f32⟩ : BufTy).Contents (Elt F) → (⟨S900000x1, .f32⟩ : BufTy).Contents (Elt F)),
    nullary main_c_6 (constantI S_ 32 0#32),
    unary main_c_6 main_v33 (broadcastInDim S900000 ![] bcast_S_S900000 : (⟨S_, .i32⟩ : BufTy).Contents (Elt F) → (⟨S900000, .i32⟩ : BufTy).Contents (Elt F)),
    binary main_v3 main_v33 main_v34 (cmpi .slt : (⟨S900000, .i32⟩ : BufTy).Contents (Elt F) → (⟨S900000, .i32⟩ : BufTy).Contents (Elt F) → (⟨S900000, .i1⟩ : BufTy).Contents (Elt F)),
    nullary main_c_7 (constantI S_ 32 100000#32),
    unary main_c_7 main_v35 (broadcastInDim S900000 ![] bcast_S_S900000 : (⟨S_, .i32⟩ : BufTy).Contents (Elt F) → (⟨S900000, .i32⟩ : BufTy).Contents (Elt F)),
    binary main_v3 main_v35 main_v36 (addi : (⟨S900000, .i32⟩ : BufTy).Contents (Elt F) → (⟨S900000, .i32⟩ : BufTy).Contents (Elt F) → (⟨S900000, .i32⟩ : BufTy).Contents (Elt F)),
    ternary main_v34 main_v36 main_v3 main_v37 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v37 main_v38 (broadcastInDim S900000x1 ![0] bcast_S900000_S900000x1_0 : (⟨S900000, .i32⟩ : BufTy).Contents (Elt F) → (⟨S900000x1, .i32⟩ : BufTy).Contents (Elt F)),
    binary main_arg0 main_v38 main_v39 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v32 main_v40 (broadcastInDim S900000x128 ![0, 1] bcast_S900000x1_S900000x128_0_1 : (⟨S900000x1, .f32⟩ : BufTy).Contents (Elt F) → (⟨S900000x128, .f32⟩ : BufTy).Contents (Elt F)),
    binary main_v40 main_v39 main_v41 (mulf : (⟨S900000x128, .f32⟩ : BufTy).Contents (Elt F) → (⟨S900000x128, .f32⟩ : BufTy).Contents (Elt F) → (⟨S900000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v6 main_v43 (broadcastInDim S900000x1 ![0] bcast_S900000_S900000x1_0 : (⟨S900000, .i32⟩ : BufTy).Contents (Elt F) → (⟨S900000x1, .i32⟩ : BufTy).Contents (Elt F)),
    ternary main_v42 main_v43 main_v41 main_v44 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    nullary main_cst_9 (constant S_ .f32 0x3E1D1BD0#32),
    unary main_cst_9 main_v45 (broadcastInDim S100000x128 ![] bcast_S_S100000x128 : (⟨S_, .f32⟩ : BufTy).Contents (Elt F) → (⟨S100000x128, .f32⟩ : BufTy).Contents (Elt F)),
    binary main_v45 main_v44 main_v46 (mulf : (⟨S100000x128, .f32⟩ : BufTy).Contents (Elt F) → (⟨S100000x128, .f32⟩ : BufTy).Contents (Elt F) → (⟨S100000x128, .f32⟩ : BufTy).Contents (Elt F)),
    binary main_v44 main_arg2 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_10 (constant S_ .f32 0x3F317218#32),
    unary main_cst_10 main_v48 (broadcastInDim S100000x128 ![] bcast_S_S100000x128 : (⟨S_, .f32⟩ : BufTy).Contents (Elt F) → (⟨S100000x128, .f32⟩ : BufTy).Contents (Elt F)),
    binary main_v48 main_v47 main_v49 (mulf : (⟨S100000x128, .f32⟩ : BufTy).Contents (Elt F) → (⟨S100000x128, .f32⟩ : BufTy).Contents (Elt F) → (⟨S100000x128, .f32⟩ : BufTy).Contents (Elt F)),
    binary main_v46 main_v49 main_v50 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3E1D1BD0#32),
    unary main_cst_11 main_v51 (broadcastInDim S100000x128 ![] bcast_S_S100000x128 : (⟨S_, .f32⟩ : BufTy).Contents (Elt F) → (⟨S100000x128, .f32⟩ : BufTy).Contents (Elt F)),
    binary main_v51 main_arg1 main_v52 (mulf : (⟨S100000x128, .f32⟩ : BufTy).Contents (Elt F) → (⟨S100000x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    binary main_arg1 main_arg3 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_12 (constant S_ .f32 0x3F317218#32),
    unary main_cst_12 main_v55 (broadcastInDim S100000x128 ![] bcast_S_S100000x128 : (⟨S_, .f32⟩ : BufTy).Contents (Elt F) → (⟨S100000x128, .f32⟩ : BufTy).Contents (Elt F)),
    binary main_v55 main_v54 main_v56 (mulf : (⟨S100000x128, .f32⟩ : BufTy).Contents (Elt F) → (⟨S100000x128, .f32⟩ : BufTy).Contents (Elt F) → (⟨S100000x128, .f32⟩ : BufTy).Contents (Elt F)),
    binary main_v53 main_v56 main_v57 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v57) (TRef.of (T := ⟨S100000x128, .f32⟩) main_call1_v0) (TRef.of (T := ⟨S100000x128, .f32⟩) main_v58) maximumf ]

/-- Up to the inverse square root of the degree: endpoints, constant vectors, degree, the selection. -/
abbrev degreeLines : List (HloOp τ sig (Elt F)) :=
  [ nullary main_v0 (iotaInDim S100000 32 0),
    unary main_arg4 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg4 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst (constant S_ .f32 0x3F800000#32),
    unary main_cst main_v7 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S900000x1 ![0] bcast_S900000_S900000x1_0 : (⟨S900000, .i32⟩ : BufTy).Contents (Elt F) → (⟨S900000x1, .i32⟩ : BufTy).Contents (Elt F)),
    ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    TRef.ternary (TRef.of (T := ⟨S100000, .i1⟩) main_v12) (TRef.of (T := ⟨S100000, .f32⟩) main_v13) (TRef.of (T := ⟨S100000, .f32⟩) main_v14) (TRef.of (T := ⟨S100000, .f32⟩) main_v15) select ]

/-- The links' weights, the gathered source rows, their sum per target. -/
abbrev spreadLines : List (HloOp τ sig (Elt F)) :=
  [ nullary main_c (constantI S_ 32 0#32),
    unary main_c main_v16 (broadcastInDim S900000 ![] bcast_S_S900000 : (⟨S_, .i32⟩ : BufTy).Contents (Elt F) → (⟨S900000, .i32⟩ : BufTy).Contents (Elt F)),
    binary main_v3 main_v16 main_v17 (cmpi .slt : (⟨S900000, .i32⟩ : BufTy).Contents (Elt F) → (⟨S900000, .i32⟩ : BufTy).Contents (Elt F) → (⟨S900000, .i1⟩ : BufTy).Contents (Elt F)),
    nullary main_c_3 (constantI S_ 32 100000#32),
    unary main_c_3 main_v18 (broadcastInDim S900000 ![] bcast_S_S900000 : (⟨S_, .i32⟩ : BufTy).Contents (Elt F) → (⟨S900000, .i32⟩ : BufTy).Contents (Elt F)),
    binary main_v3 main_v18 main_v19 (addi : (⟨S900000, .i32⟩ : BufTy).Contents (Elt F) → (⟨S900000, .i32⟩ : BufTy).Contents (Elt F) → (⟨S900000, .i32⟩ : BufTy).Contents (Elt F)),
    ternary main_v17 main_v19 main_v3 main_v20 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v20 main_v21 (broadcastInDim S900000x1 ![0] bcast_S900000_S900000x1_0 : (⟨S900000, .i32⟩ : BufTy).Contents (Elt F) → (⟨S900000x1, .i32⟩ : BufTy).Contents (Elt F)),
    binary main_v15 main_v21 main_v22 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v22 main_v7 main_v23 (mulf : (⟨S900000, .f32⟩ : BufTy).Contents (Elt F) → (⟨S900000, .f32⟩ : BufTy).Contents (Elt F) → (⟨S900000, .f32⟩ : BufTy).Contents (Elt F)),
    nullary main_c_4 (constantI S_ 32 0#32),
    unary main_c_4 main_v24 (broadcastInDim S900000 ![] bcast_S_S900000 : (⟨S_, .i32⟩ : BufTy).Contents (Elt F) → (⟨S900000, .i32⟩ : BufTy).Contents (Elt F)),
    binary main_v6 main_v24 main_v25 (cmpi .slt : (⟨S900000, .i32⟩ : BufTy).Contents (Elt F) → (⟨S900000, .i32⟩ : BufTy).Contents (Elt F) → (⟨S900000, .i1⟩ : BufTy).Contents (Elt F)),
    nullary main_c_5 (constantI S_ 32 100000#32),
    unary main_c_5 main_v26 (broadcastInDim S900000 ![] bcast_S_S900000 : (⟨S_, .i32⟩ : BufTy).Contents (Elt F) → (⟨S900000, .i32⟩ : BufTy).Contents (Elt F)),
    binary main_v6 main_v26 main_v27 (addi : (⟨S900000, .i32⟩ : BufTy).Contents (Elt F) → (⟨S900000, .i32⟩ : BufTy).Contents (Elt F) → (⟨S900000, .i32⟩ : BufTy).Contents (Elt F)),
    ternary main_v25 main_v27 main_v6 main_v28 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v28 main_v29 (broadcastInDim S900000x1 ![0] bcast_S900000_S900000x1_0 : (⟨S900000, .i32⟩ : BufTy).Contents (Elt F) → (⟨S900000x1, .i32⟩ : BufTy).Contents (Elt F)),
    binary main_v15 main_v29 main_v30 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v23 main_v30 main_v31 (mulf : (⟨S900000, .f32⟩ : BufTy).Contents (Elt F) → (⟨S900000, .f32⟩ : BufTy).Contents (Elt F) → (⟨S900000, .f32⟩ : BufTy).Contents (Elt F)),
    unary main_v31 main_v32 (broadcastInDim S900000x1 ![0] bcast_S900000_S900000x1_0 : (⟨S900000, .f32⟩ : BufTy).Contents (Elt F) → (⟨S900000x1, .f32⟩ : BufTy).Contents (Elt F)),
    nullary main_c_6 (constantI S_ 32 0#32),
    unary main_c_6 main_v33 (broadcastInDim S900000 ![] bcast_S_S900000 : (⟨S_, .i32⟩ : BufTy).Contents (Elt F) → (⟨S900000, .i32⟩ : BufTy).Contents (Elt F)),
    binary main_v3 main_v33 main_v34 (cmpi .slt : (⟨S900000, .i32⟩ : BufTy).Contents (Elt F) → (⟨S900000, .i32⟩ : BufTy).Contents (Elt F) → (⟨S900000, .i1⟩ : BufTy).Contents (Elt F)),
    nullary main_c_7 (constantI S_ 32 100000#32),
    unary main_c_7 main_v35 (broadcastInDim S900000 ![] bcast_S_S900000 : (⟨S_, .i32⟩ : BufTy).Contents (Elt F) → (⟨S900000, .i32⟩ : BufTy).Contents (Elt F)),
    binary main_v3 main_v35 main_v36 (addi : (⟨S900000, .i32⟩ : BufTy).Contents (Elt F) → (⟨S900000, .i32⟩ : BufTy).Contents (Elt F) → (⟨S900000, .i32⟩ : BufTy).Contents (Elt F)),
    ternary main_v34 main_v36 main_v3 main_v37 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v37 main_v38 (broadcastInDim S900000x1 ![0] bcast_S900000_S900000x1_0 : (⟨S900000, .i32⟩ : BufTy).Contents (Elt F) → (⟨S900000x1, .i32⟩ : BufTy).Contents (Elt F)),
    binary main_arg0 main_v38 main_v39 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v32 main_v40 (broadcastInDim S900000x128 ![0, 1] bcast_S900000x1_S900000x128_0_1 : (⟨S900000x1, .f32⟩ : BufTy).Contents (Elt F) → (⟨S900000x128, .f32⟩ : BufTy).Contents (Elt F)),
    binary main_v40 main_v39 main_v41 (mulf : (⟨S900000x128, .f32⟩ : BufTy).Contents (Elt F) → (⟨S900000x128, .f32⟩ : BufTy).Contents (Elt F) → (⟨S900000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v6 main_v43 (broadcastInDim S900000x1 ![0] bcast_S900000_S900000x1_0 : (⟨S900000, .i32⟩ : BufTy).Contents (Elt F) → (⟨S900000x1, .i32⟩ : BufTy).Contents (Elt F)),
    ternary main_v42 main_v43 main_v41 main_v44 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)) ]

/-- The dense stage and the rectification. -/
abbrev denseLines : List (HloOp τ sig (Elt F)) :=
  [ nullary main_cst_9 (constant S_ .f32 0x3E1D1BD0#32),
    unary main_cst_9 main_v45 (broadcastInDim S100000x128 ![] bcast_S_S100000x128 : (⟨S_, .f32⟩ : BufTy).Contents (Elt F) → (⟨S100000x128, .f32⟩ : BufTy).Contents (Elt F)),
    binary main_v45 main_v44 main_v46 (mulf : (⟨S100000x128, .f32⟩ : BufTy).Contents (Elt F) → (⟨S100000x128, .f32⟩ : BufTy).Contents (Elt F) → (⟨S100000x128, .f32⟩ : BufTy).Contents (Elt F)),
    binary main_v44 main_arg2 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_10 (constant S_ .f32 0x3F317218#32),
    unary main_cst_10 main_v48 (broadcastInDim S100000x128 ![] bcast_S_S100000x128 : (⟨S_, .f32⟩ : BufTy).Contents (Elt F) → (⟨S100000x128, .f32⟩ : BufTy).Contents (Elt F)),
    binary main_v48 main_v47 main_v49 (mulf : (⟨S100000x128, .f32⟩ : BufTy).Contents (Elt F) → (⟨S100000x128, .f32⟩ : BufTy).Contents (Elt F) → (⟨S100000x128, .f32⟩ : BufTy).Contents (Elt F)),
    binary main_v46 main_v49 main_v50 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3E1D1BD0#32),
    unary main_cst_11 main_v51 (broadcastInDim S100000x128 ![] bcast_S_S100000x128 : (⟨S_, .f32⟩ : BufTy).Contents (Elt F) → (⟨S100000x128, .f32⟩ : BufTy).Contents (Elt F)),
    binary main_v51 main_arg1 main_v52 (mulf : (⟨S100000x128, .f32⟩ : BufTy).Contents (Elt F) → (⟨S100000x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    binary main_arg1 main_arg3 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_12 (constant S_ .f32 0x3F317218#32),
    unary main_cst_12 main_v55 (broadcastInDim S100000x128 ![] bcast_S_S100000x128 : (⟨S_, .f32⟩ : BufTy).Contents (Elt F) → (⟨S100000x128, .f32⟩ : BufTy).Contents (Elt F)),
    binary main_v55 main_v54 main_v56 (mulf : (⟨S100000x128, .f32⟩ : BufTy).Contents (Elt F) → (⟨S100000x128, .f32⟩ : BufTy).Contents (Elt F) → (⟨S100000x128, .f32⟩ : BufTy).Contents (Elt F)),
    binary main_v53 main_v56 main_v57 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v57) (TRef.of (T := ⟨S100000x128, .f32⟩) main_call1_v0) (TRef.of (T := ⟨S100000x128, .f32⟩) main_v58) maximumf ]

theorem ops_cut : (ops : List (HloOp τ sig (Elt F))) = (degreeLines ++ spreadLines) ++ denseLines := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub ..⟩

set_option maxRecDepth 8192 in
set_option maxHeartbeats 4000000 in
/-- Every weakly fair execution of the reference terminates, without a fault, with each buffer at the fold of the line's
    operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.ReferenceStages.lean ====
/-
  The reference's line read stretch by stretch.

  The first 20 operations leave the links' endpoints, the vector of ones and the inverse square root of the degree; the next
  36 leave the propagated features; the last 20 are the dense stage and the rectification, a function of the propagated
  features and of the program's other three float arguments, none of which any operation writes. Each stretch is read at the
  buffers the next one uses, against the propagation's named functions, for any float instance; composed, the result buffer
  holds the dense tail of the propagated features of the first argument over the edge list.
-/
import proofs.«110994_j6150393168666_1_alg».proof.Proof.ReferenceLine
import proofs.«110994_j6150393168666_1_alg».proof.Proof.Propagation
import proofs.«110994_j6150393168666_1_alg».proof.Proof.LibFoldSplit

noncomputable section

namespace Cert.ReferenceIdeal.Stages

open Cert.ReferenceIdeal Cert.ReferenceIdeal.Gen Cert.ReferenceIdeal.Line Idealize.ShloMosaic Idealize.ShloMosaic.TcCoe Idealize.SL.Sem
open Idealize.ShloMosaic.StableHlo Cert.Propagation

variable {F : FTy → Type} [FloatOps F]

/-! ## The first stretch: endpoints, ones, the inverse square root of the degree -/

set_option maxRecDepth 8192 in
theorem degree_sources (W : Valuation τ sig (Elt F)) :
    after degreeLines W (Proc.devRef .tc main_v3) = sources (W (Proc.devRef .tc main_arg4)) := by
  after_results_simp
  rfl

set_option maxRecDepth 8192 in
theorem degree_targets (W : Valuation τ sig (Elt F)) :
    after degreeLines W (Proc.devRef .tc main_v6) = targets (W (Proc.devRef .tc main_arg4)) := by
  after_results_simp
  rfl

set_option maxRecDepth 8192 in
theorem degree_ones (W : Valuation τ sig (Elt F)) :
    after degreeLines W (Proc.devRef .tc main_v7) = ones (F := F) := by
  after_results_simp
  rfl

set_option maxRecDepth 8192 in
theorem degree_invSqrt (W : Valuation τ sig (Elt F)) :
    after degreeLines W (Proc.devRef .tc main_v15) = invSqrtDegree (ones (F := F)) (targets (W (Proc.devRef .tc main_arg4))) := by
  after_results_simp
  rfl

set_option maxRecDepth 8192 in
theorem degree_keeps_x (W : Valuation τ sig (Elt F)) :
    after degreeLines W (Proc.devRef .tc main_arg0) = W (Proc.devRef .tc main_arg0) := by
  after_results_simp

set_option maxRecDepth 8192 in
theorem degree_keeps_x0 (W : Valuation τ sig (Elt F)) :
    after degreeLines W (Proc.devRef .tc main_arg1) = W (Proc.devRef .tc main_arg1) := by
  after_results_simp

set_option maxRecDepth 8192 in
theorem degree_keeps_w1 (W : Valuation τ sig (Elt F)) :
    after degreeLines W (Proc.devRef .tc main_arg2) = W (Proc.devRef .tc main_arg2) := by
  after_results_simp

set_option maxRecDepth 8192 in
theorem degree_keeps_w2 (W : Valuation τ sig (Elt F)) :
    after degreeLines W (Proc.devRef .tc main_arg3) = W (Proc.devRef .tc main_arg3) := by
  after_results_simp

/-! ## The second stretch: weights, gathered rows, the sum per target -/

set_option maxRecDepth 8192 in
theorem spread_h (W : Valuation τ sig (Elt F)) :
    after spreadLines W (Proc.devRef .tc main_v44)
      = spread (W (Proc.devRef .tc main_arg0)) (W (Proc.devRef .tc main_v15)) (W (Proc.devRef .tc main_v7))
          (W (Proc.devRef .tc main_v3)) (W (Proc.devRef .tc main_v6)) := by
  after_results_simp
  rfl

set_option maxRecDepth 8192 in
theorem spread_keeps_x0 (W : Valuation τ sig (Elt F)) :
    after spreadLines W (Proc.devRef .tc main_arg1) = W (Proc.devRef .tc main_arg1) := by
  after_results_simp

set_option maxRecDepth 8192 in
theorem spread_keeps_w1 (W : Valuation τ sig (Elt F)) :
    after spreadLines W (Proc.devRef .tc main_arg2) = W (Proc.devRef .tc main_arg2) := by
  after_results_simp

set_option maxRecDepth 8192 in
theorem spread_keeps_w2 (W : Valuation τ sig (Elt F)) :
    after spreadLines W (Proc.devRef .tc main_arg3) = W (Proc.devRef .tc main_arg3) := by
  after_results_simp

/-! ## The third stretch: the dense stage and the rectification -/

/-- The last 20 operations as one function of the propagated features `h`, the initial features `x0` and the two weight
    matrices: `max(((a·h + β·(h·W1)) + a·x0) + β·(x0·W2), 0)`, the products the host's. -/
def denseTail (h x0 : FVec F S100000x128 .f32) (w1 w2 : FVec F S128x128 .f32) : FVec F S100000x128 .f32 :=
  maximumf
    (addf
      (addf
        (addf (mulf (broadcastInDim S100000x128 ![] bcast_S_S100000x128 (constant (F := F) S_ .f32 0x3E1D1BD0#32)) h)
          (mulf (broadcastInDim S100000x128 ![] bcast_S_S100000x128 (constant (F := F) S_ .f32 0x3F317218#32))
            (Host.dotGeneral dot_S100000x128_S128x128_S100000x128_1_0_0_1_n_n none h w1)))
        (mulf (broadcastInDim S100000x128 ![] bcast_S_S100000x128 (constant (F := F) S_ .f32 0x3E1D1BD0#32)) x0))
      (mulf (broadcastInDim S100000x128 ![] bcast_S_S100000x128 (constant (F := F) S_ .f32 0x3F317218#32))
        (Host.dotGeneral dot_S100000x128_S128x128_S100000x128_1_0_0_1_n_n none x0 w2)))
    (broadcastInDim S100000x128 ![] bcast_S_S100000x128 (constant (F := F) S_ .f32 0x00000000#32))

set_option maxRecDepth 8192 in
theorem dense_result (W : Valuation τ sig (Elt F)) :
    after denseLines W (Proc.devRef .tc main_v58)
      = denseTail (W (Proc.devRef .tc main_v44)) (W (Proc.devRef .tc main_arg1)) (W (Proc.devRef .tc main_arg2))
          (W (Proc.devRef .tc main_arg3)) := by
  after_results_simp
  rfl

/-! ## Composed -/

/-- After the whole line the result buffer holds the dense tail of the propagated features of the first argument over the
    edge list, of the second argument and of the two weight matrices. -/
theorem result_fold (W : Valuation τ sig (Elt F)) :
    after ops W (Proc.devRef .tc main_v58)
      = denseTail (propagated (W (Proc.devRef .tc main_arg0)) (W (Proc.devRef .tc main_arg4)))
          (W (Proc.devRef .tc main_arg1)) (W (Proc.devRef .tc main_arg2)) (W (Proc.devRef .tc main_arg3)) := by
  rw [ops_cut, Cert.FoldSplit.after_append, dense_result, Cert.FoldSplit.after_append,
    spread_h, spread_keeps_x0, spread_keeps_w1, spread_keeps_w2,
    degree_keeps_x, degree_invSqrt, degree_ones, degree_sources, degree_targets, degree_keeps_x0, degree_keeps_w1, degree_keeps_w2]
  rfl

/-! ## The arguments stay as launched -/

set_option maxRecDepth 8192 in
theorem line_keeps_arg0 (W : Valuation τ sig (Elt F)) :
    after ops W (Proc.devRef .tc main_arg0) = W (Proc.devRef .tc main_arg0) := by
  after_results_simp

set_option maxRecDepth 8192 in
theorem line_keeps_arg1 (W : Valuation τ sig (Elt F)) :
    after ops W (Proc.devRef .tc main_arg1) = W (Proc.devRef .tc main_arg1) := by
  after_results_simp

set_option maxRecDepth 8192 in
theorem line_keeps_arg2 (W : Valuation τ sig (Elt F)) :
    after ops W (Proc.devRef .tc main_arg2) = W (Proc.devRef .tc main_arg2) := by
  after_results_simp

set_option maxRecDepth 8192 in
theorem line_keeps_arg3 (W : Valuation τ sig (Elt F)) :
    after ops W (Proc.devRef .tc main_arg3) = W (Proc.devRef .tc main_arg3) := by
  after_results_simp

set_option maxRecDepth 8192 in
theorem line_keeps_arg4 (W : Valuation τ sig (Elt F)) :
    after ops W (Proc.devRef .tc main_arg4) = W (Proc.devRef .tc main_arg4) := by
  after_results_simp

end Cert.ReferenceIdeal.Stages

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.ReferenceDense.lean ====
/-
  The reference's dense tail is the dense stage.

  On the extended reals the host's product of `[100000, 128]` by `[128, 128]` has entry `(p, q)` equal to `∑ k, l[p,k] · r[k,q]`;
  the scalings are by the same two words as the stage's, splat over the array; the additions are grouped as the stage groups
  them; and the rectification is `max(·, 0)` with the zero word splat. So the tail is the stage, entry by entry, for any four
  operands.
-/
import proofs.«110994_j6150393168666_1_alg».proof.Proof.ReferenceStages
import proofs.«110994_j6150393168666_1_alg».proof.Proof.DenseLayer
import proofs.«110994_j6150393168666_1_alg».proof.Proof.LibHostProduct

noncomputable section

open scoped BigOperators

namespace Cert.ReferenceIdeal.DenseTail

open Cert.ReferenceIdeal Cert.ReferenceIdeal.Gen Cert.ReferenceIdeal.Stages Idealize.ShloMosaic Idealize.ShloMosaic.ValueIdx Cert.DenseLayer

/-! ## The products' dimension numbers: rows by the first operand, columns by the second, one contracted axis of extent 128 -/

theorem lhs_row (j : S100000x128.Idx) (q : dot_S100000x128_S128x128_S100000x128_1_0_0_1_n_n.contr.Idx) :
    (dot_S100000x128_S128x128_S100000x128_1_0_0_1_n_n.lhsIdx j q (0 : Fin 2)).val = (j (0 : Fin 2)).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem lhs_contracted (j : S100000x128.Idx) (q : dot_S100000x128_S128x128_S100000x128_1_0_0_1_n_n.contr.Idx) :
    (dot_S100000x128_S128x128_S100000x128_1_0_0_1_n_n.lhsIdx j q (1 : Fin 2)).val = (q ⟨0, by decide⟩).val :=
  dot_S100000x128_S128x128_S100000x128_1_0_0_1_n_n.lhsIdx_val_of_single rfl j q
theorem rhs_contracted (j : S100000x128.Idx) (q : dot_S100000x128_S128x128_S100000x128_1_0_0_1_n_n.contr.Idx) :
    (dot_S100000x128_S128x128_S100000x128_1_0_0_1_n_n.rhsIdx j q (0 : Fin 2)).val = (q ⟨0, by decide⟩).val :=
  dot_S100000x128_S128x128_S100000x128_1_0_0_1_n_n.rhsIdx_val_of_single rfl j q
theorem rhs_column (j : S100000x128.Idx) (q : dot_S100000x128_S128x128_S100000x128_1_0_0_1_n_n.contr.Idx) :
    (dot_S100000x128_S128x128_S100000x128_1_0_0_1_n_n.rhsIdx j q (1 : Fin 2)).val = (j (1 : Fin 2)).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- Entry `(p, q)` of the host's product is `∑ k, l[p, k] · r[k, q]`. -/
theorem product_entry {φ₁ φ₂ : FTy} (l : FVec Ideal S100000x128 φ₁) (r : FVec Ideal S128x128 φ₂) (p : Fin 100000) (q : Fin 128) :
    Host.dotGeneral (F := Ideal) dot_S100000x128_S128x128_S100000x128_1_0_0_1_n_n none l r (ix2 p q) = ∑ k : Fin 128, l (ix2 p k) * r (ix2 k q) :=
  Cert.HostProduct.dotGeneral_entry dot_S100000x128_S128x128_S100000x128_1_0_0_1_n_n rfl rfl lhs_row lhs_contracted rhs_contracted rhs_column l r p q

/-- The dense tail of any four operands is their dense stage. -/
theorem denseTail_eq (h x0 : FVec Ideal S100000x128 .f32) (w1 w2 : FVec Ideal S128x128 .f32) :
    denseTail (F := Ideal) h x0 w1 w2 = dense h x0 w1 w2 := by
  funext i
  obtain ⟨p, q, rfl⟩ : ∃ (p : Fin 100000) (q : Fin 128), i = ix2 p q := ⟨i 0, i 1, eq_ix2 i⟩
  rw [dense_ix2]
  unfold denseTail entry
  show max (((resid * h (ix2 p q) + beta * Host.dotGeneral (F := Ideal) dot_S100000x128_S128x128_S100000x128_1_0_0_1_n_n none h w1 (ix2 p q)) + resid * x0 (ix2 p q))
        + beta * Host.dotGeneral (F := Ideal) dot_S100000x128_S128x128_S100000x128_1_0_0_1_n_n none x0 w2 (ix2 p q)) floor0 = _
  rw [product_entry, product_entry]

end Cert.ReferenceIdeal.DenseTail

end
-- ==== Proof.lean ====
/-
  The kernel — graph propagation on the host, then the dense stage of a GCNII layer computed on the TPU a block of 2000 rows at a
  time — against its reference, which does both on the host.

  Both programs first compute, with the same host operations, the propagated features
      h[v, c] = ∑ over the links e into v of  dis[src e] · dis[tgt e] · x[src e, c],
  over the given edges and one self-loop per node, `dis = deg^(-1/2)` where the degree is positive and zero elsewhere
  (Proof/Propagation.lean). Both then form
      out[p, c] = max ( ((a · h[p,c] + β · ∑ k, h[p,k] · W1[k,c]) + a · x0[p,c]) + β · ∑ k, x0[p,k] · W2[k,c] , 0 )
  with the same two scalar words `a` and `β` and the same grouping (Proof/DenseLayer.lean): the reference on whole arrays with the
  host's matrix product, the kernel a block of rows at a time, its operands narrowed to bf16 — the identity on extended reals —
  and multiplied on the matrix unit into a zero accumulator. On the extended reals both products are the plain sum over the
  contracted axis, an entry reads one row of each feature matrix, and the blocks tile the rows; so the two results are the
  same function of the arguments, entry by entry. No law that needs a finite value is used, so the precondition is never
  opened.

  The idealized kernel's result: Proof/BlockBody.lean (the body's stored block), Proof/RowsOfBlocks.lean (blocks as rows of the
  arrays, the cover), Proof/RegionEntry.lean (the host operations before the region), Proof/RowBlocks.lean (the run). The
  reference's: Proof/ReferenceLine.lean (its run as a straight line), Proof/ReferenceStages.lean (the line read stretch by stretch),
  Proof/ReferenceDense.lean (its last stretch is the dense stage).
-/
import proofs.«110994_j6150393168666_1_alg».proof.Defs
import proofs.«110994_j6150393168666_1_alg».proof.Proof.Gen.Kernel
import proofs.«110994_j6150393168666_1_alg».proof.Proof.Gen.Kernel.Skeleton
import proofs.«110994_j6150393168666_1_alg».proof.Proof.Gen.Kernel.Launch
import proofs.«110994_j6150393168666_1_alg».proof.Proof.Gen.Kernel.Points
import proofs.«110994_j6150393168666_1_alg».proof.Proof.Gen.Kernel.Frame
import proofs.«110994_j6150393168666_1_alg».proof.Proof.Gen.KernelIdeal
import proofs.«110994_j6150393168666_1_alg».proof.Proof.Gen.KernelIdeal.Skeleton
import proofs.«110994_j6150393168666_1_alg».proof.Proof.Gen.KernelIdeal.Launch
import proofs.«110994_j6150393168666_1_alg».proof.Proof.Gen.KernelIdeal.Points
import proofs.«110994_j6150393168666_1_alg».proof.Proof.Gen.KernelIdeal.Frame
import proofs.«110994_j6150393168666_1_alg».proof.Proof.Gen.ReferenceIdeal
import proofs.«110994_j6150393168666_1_alg».proof.Proof.Gen.Pre_finite_inputs
import proofs.«110994_j6150393168666_1_alg».proof.Proof.Gen.KernelIdeal.Value
import proofs.«110994_j6150393168666_1_alg».proof.Proof.RowBlocks
import proofs.«110994_j6150393168666_1_alg».proof.Proof.ReferenceDense
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs, and no operation of its line writes an argument. -/
theorem frame_reference : Cert.frame_ReferenceIdeal := fun m ρ _ =>
  (θ_run Cert.ReferenceIdeal.defs _ _).mono
    (fun r h c => ⟨(h c Cert.ReferenceIdeal.main_arg0).trans (Cert.ReferenceIdeal.Stages.line_keeps_arg0 _),
      (h c Cert.ReferenceIdeal.main_arg1).trans (Cert.ReferenceIdeal.Stages.line_keeps_arg1 _),
      (h c Cert.ReferenceIdeal.main_arg2).trans (Cert.ReferenceIdeal.Stages.line_keeps_arg2 _),
      (h c Cert.ReferenceIdeal.main_arg3).trans (Cert.ReferenceIdeal.Stages.line_keeps_arg3 _),
      (h c Cert.ReferenceIdeal.main_arg4).trans (Cert.ReferenceIdeal.Stages.line_keeps_arg4 _)⟩)
    (Cert.ReferenceIdeal.Line.run (F := Ideal) m ρ)

/-- The idealization rewrote nothing. -/
theorem preserves : Cert.preserves_Kernel_KernelIdeal := trivial

/-- Both results are the dense stage of the propagated features of the first argument over the edge list, of the second
    argument and of the two weight matrices: the kernel's by its blocks, the reference's by its line. -/
theorem algebraic : Cert.algebraic_KernelIdeal_ReferenceIdeal := by
  intro m ρ m' ρ' _ hagree
  refine ⟨fun c => Cert.KernelIdeal.RowBlocks.result m c, Cert.KernelIdeal.RowBlocks.run m ρ, ?_⟩
  refine (θ_run Cert.ReferenceIdeal.defs _ _).mono (fun r h c => ?_) (Cert.ReferenceIdeal.Line.run (F := Ideal) m' ρ')
  obtain ⟨a0, a1, a2, a3, a4⟩ := hagree c
  refine ⟨?_, (h c Cert.ReferenceIdeal.main_arg0).trans (Cert.ReferenceIdeal.Stages.line_keeps_arg0 _),
    (h c Cert.ReferenceIdeal.main_arg1).trans (Cert.ReferenceIdeal.Stages.line_keeps_arg1 _),
    (h c Cert.ReferenceIdeal.main_arg2).trans (Cert.ReferenceIdeal.Stages.line_keeps_arg2 _),
    (h c Cert.ReferenceIdeal.main_arg3).trans (Cert.ReferenceIdeal.Stages.line_keeps_arg3 _),
    (h c Cert.ReferenceIdeal.main_arg4).trans (Cert.ReferenceIdeal.Stages.line_keeps_arg4 _)⟩
  have b0 : StableHlo.launchContents m' c (Proc.devRef .tc Cert.ReferenceIdeal.main_arg0)
      = m ((c.tc : Thread Cert.KernelIdeal.nD Cert.KernelIdeal.τ).loc Cert.KernelIdeal.main_arg0) := a0
  have b1 : StableHlo.launchContents m' c (Proc.devRef .tc Cert.ReferenceIdeal.main_arg1)
      = m ((c.tc : Thread Cert.KernelIdeal.nD Cert.KernelIdeal.τ).loc Cert.KernelIdeal.main_arg1) := a1
  have b2 : StableHlo.launchContents m' c (Proc.devRef .tc Cert.ReferenceIdeal.main_arg2)
      = m ((c.tc : Thread Cert.KernelIdeal.nD Cert.KernelIdeal.τ).loc Cert.KernelIdeal.main_arg2) := a2
  have b3 : StableHlo.launchContents m' c (Proc.devRef .tc Cert.ReferenceIdeal.main_arg3)
      = m ((c.tc : Thread Cert.KernelIdeal.nD Cert.KernelIdeal.τ).loc Cert.KernelIdeal.main_arg3) := a3
  have b4 : StableHlo.launchContents m' c (Proc.devRef .tc Cert.ReferenceIdeal.main_arg4)
      = m ((c.tc : Thread Cert.KernelIdeal.nD Cert.KernelIdeal.τ).loc Cert.KernelIdeal.main_arg4) := a4
  rw [h c Cert.ReferenceIdeal.main_v58, Cert.ReferenceIdeal.Stages.result_fold, Cert.ReferenceIdeal.DenseTail.denseTail_eq,
    b0, b1, b2, b3, b4]
  unfold Cert.KernelIdeal.RowBlocks.result
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
